-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel

variable [Facts]

def fn {F : FTy → Type} [FloatOps F] (main_arg0 : FVec F S128x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  main_v3
-- ==== Kernel.lean ====
abbrev S128x1024 : Shape := ⟨2, ![128, 1024]⟩
abbrev S128x2048 : Shape := ⟨2, ![128, 2048]⟩
abbrev S128x1x1024x1024 : Shape := ⟨4, ![128, 1, 1024, 1024]⟩
abbrev S128x1x32x1024 : Shape := ⟨4, ![128, 1, 32, 1024]⟩
abbrev S128x1x1x1024 : Shape := ⟨4, ![128, 1, 1, 1024]⟩

abbrev nBuf : Space → Nat
  | .hbm => 3
  | .vmem => 3
  | .smem => 0
  | _ => 0

abbrev bufTy : (tb : Table) → Fin (tcTables nBuf tb) → BufTy
  | .hbm, ⟨0, _⟩ => ⟨S128x1024, .f32⟩
  | .hbm, ⟨1, _⟩ => ⟨S128x2048, .f32⟩
  | .hbm, ⟨2, _⟩ => ⟨S128x1x1024x1024, .f32⟩
  | .local _ .vmem, ⟨0, _⟩ => ⟨S128x2048, .f32⟩
  | .local _ .vmem, ⟨1, _⟩ => ⟨S128x1x32x1024, .f32⟩
  | .local _ .vmem, ⟨2, _⟩ => ⟨S128x1x32x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![32], ![false]⟩

def k0_off1 (i : grid0.Coords) (c0_i32 : BitVec 32) : Fin 2 → Nat :=
  let c0 : Index := 0#32
  let c1024_i32 : BitVec 32 := 1024#32
  let arg0 : BitVec 32 := BitVec.ofNat 32 (i 0).val
  let c32_i32 : BitVec 32 := 32#32
  let v0 : BitVec 32 := Scalar.muli arg0 c32_i32
  let v1 : BitVec 32 := Scalar.subi c1024_i32 v0
  let v2 : BitVec 32 := Scalar.subi v1 c0_i32
  let v3 : Index := Scalar.indexCast v2
  ![0, v3.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  concatenates_S128x1024_S128x1024_S128x2048_d1 : Shape.Concatenates [S128x1024, S128x1024] S128x2048 1
  h_S128x1024 : 0 < S128x1024.numel
  shapeCasts_S128x1024_S128x1024 : S128x1024.ShapeCasts S128x1024
  inb_S128x1x32x1024_S128x1x1x1024_0_0_0_0 : ∀ a, (![0, 0, 0, 0] : Fin 4 → Nat) a + S128x1x1x1024.size a ≤ S128x1x32x1024.size a
  h_S128x1x1x1024 : 0 < S128x1x1x1024.numel
  shapeCasts_S128x1x1x1024_S128x1024 : S128x1x1x1024.ShapeCasts S128x1024
  shapeCasts_S128x1024_S128x1x1x1024 : S128x1024.ShapeCasts S128x1x1x1024
  inb_S128x1x32x1024_S128x1x1x1024_0_0_1_0 : ∀ a, (![0, 0, 1, 0] : Fin 4 → Nat) a + S128x1x1x1024.size a ≤ S128x1x32x1024.size a
  inb_S128x1x32x1024_S128x1x1x1024_0_0_2_0 : ∀ a, (![0, 0, 2, 0] : Fin 4 → Nat) a + S128x1x1x1024.size a ≤ S128x1x32x1024.size a
  inb_S128x1x32x1024_S128x1x1x1024_0_0_3_0 : ∀ a, (![0, 0, 3, 0] : Fin 4 → Nat) a + S128x1x1x1024.size a ≤ S128x1x32x1024.size a
  inb_S128x1x32x1024_S128x1x1x1024_0_0_4_0 : ∀ a, (![0, 0, 4, 0] : Fin 4 → Nat) a + S128x1x1x1024.size a ≤ S128x1x32x1024.size a
  inb_S128x1x32x1024_S128x1x1x1024_0_0_5_0 : ∀ a, (![0, 0, 5, 0] : Fin 4 → Nat) a + S128x1x1x1024.size a ≤ S128x1x32x1024.size a
  inb_S128x1x32x1024_S128x1x1x1024_0_0_6_0 : ∀ a, (![0, 0, 6, 0] : Fin 4 → Nat) a + S128x1x1x1024.size a ≤ S128x1x32x1024.size a
  inb_S128x1x32x1024_S128x1x1x1024_0_0_7_0 : ∀ a, (![0, 0, 7, 0] : Fin 4 → Nat) a + S128x1x1x1024.size a ≤ S128x1x32x1024.size a
  inb_S128x1x32x1024_S128x1x1x1024_0_0_8_0 : ∀ a, (![0, 0, 8, 0] : Fin 4 → Nat) a + S128x1x1x1024.size a ≤ S128x1x32x1024.size a
  inb_S128x1x32x1024_S128x1x1x1024_0_0_9_0 : ∀ a, (![0, 0, 9, 0] : Fin 4 → Nat) a + S128x1x1x1024.size a ≤ S128x1x32x1024.size a
  inb_S128x1x32x1024_S128x1x1x1024_0_0_10_0 : ∀ a, (![0, 0, 10, 0] : Fin 4 → Nat) a + S128x1x1x1024.size a ≤ S128x1x32x1024.size a
  inb_S128x1x32x1024_S128x1x1x1024_0_0_11_0 : ∀ a, (![0, 0, 11, 0] : Fin 4 → Nat) a + S128x1x1x1024.size a ≤ S128x1x32x1024.size a
  inb_S128x1x32x1024_S128x1x1x1024_0_0_12_0 : ∀ a, (![0, 0, 12, 0] : Fin 4 → Nat) a + S128x1x1x1024.size a ≤ S128x1x32x1024.size a
  inb_S128x1x32x1024_S128x1x1x1024_0_0_13_0 : ∀ a, (![0, 0, 13, 0] : Fin 4 → Nat) a + S128x1x1x1024.size a ≤ S128x1x32x1024.size a
  inb_S128x1x32x1024_S128x1x1x1024_0_0_14_0 : ∀ a, (![0, 0, 14, 0] : Fin 4 → Nat) a + S128x1x1x1024.size a ≤ S128x1x32x1024.size a
  inb_S128x1x32x1024_S128x1x1x1024_0_0_15_0 : ∀ a, (![0, 0, 15, 0] : Fin 4 → Nat) a + S128x1x1x1024.size a ≤ S128x1x32x1024.size a
  inb_S128x1x32x1024_S128x1x1x1024_0_0_16_0 : ∀ a, (![0, 0, 16, 0] : Fin 4 → Nat) a + S128x1x1x1024.size a ≤ S128x1x32x1024.size a
  inb_S128x1x32x1024_S128x1x1x1024_0_0_17_0 : ∀ a, (![0, 0, 17, 0] : Fin 4 → Nat) a + S128x1x1x1024.size a ≤ S128x1x32x1024.size a
  inb_S128x1x32x1024_S128x1x1x1024_0_0_18_0 : ∀ a, (![0, 0, 18, 0] : Fin 4 → Nat) a + S128x1x1x1024.size a ≤ S128x1x32x1024.size a
  inb_S128x1x32x1024_S128x1x1x1024_0_0_19_0 : ∀ a, (![0, 0, 19, 0] : Fin 4 → Nat) a + S128x1x1x1024.size a ≤ S128x1x32x1024.size a
  inb_S128x1x32x1024_S128x1x1x1024_0_0_20_0 : ∀ a, (![0, 0, 20, 0] : Fin 4 → Nat) a + S128x1x1x1024.size a ≤ S128x1x32x1024.size a
  inb_S128x1x32x1024_S128x1x1x1024_0_0_21_0 : ∀ a, (![0, 0, 21, 0] : Fin 4 → Nat) a + S128x1x1x1024.size a ≤ S128x1x32x1024.size a
  inb_S128x1x32x1024_S128x1x1x1024_0_0_22_0 : ∀ a, (![0, 0, 22, 0] : Fin 4 → Nat) a + S128x1x1x1024.size a ≤ S128x1x32x1024.size a
  inb_S128x1x32x1024_S128x1x1x1024_0_0_23_0 : ∀ a, (![0, 0, 23, 0] : Fin 4 → Nat) a + S128x1x1x1024.size a ≤ S128x1x32x1024.size a
  inb_S128x1x32x1024_S128x1x1x1024_0_0_24_0 : ∀ a, (![0, 0, 24, 0] : Fin 4 → Nat) a + S128x1x1x1024.size a ≤ S128x1x32x1024.size a
  inb_S128x1x32x1024_S128x1x1x1024_0_0_25_0 : ∀ a, (![0, 0, 25, 0] : Fin 4 → Nat) a + S128x1x1x1024.size a ≤ S128x1x32x1024.size a
  inb_S128x1x32x1024_S128x1x1x1024_0_0_26_0 : ∀ a, (![0, 0, 26, 0] : Fin 4 → Nat) a + S128x1x1x1024.size a ≤ S128x1x32x1024.size a
  inb_S128x1x32x1024_S128x1x1x1024_0_0_27_0 : ∀ a, (![0, 0, 27, 0] : Fin 4 → Nat) a + S128x1x1x1024.size a ≤ S128x1x32x1024.size a
  inb_S128x1x32x1024_S128x1x1x1024_0_0_28_0 : ∀ a, (![0, 0, 28, 0] : Fin 4 → Nat) a + S128x1x1x1024.size a ≤ S128x1x32x1024.size a
  inb_S128x1x32x1024_S128x1x1x1024_0_0_29_0 : ∀ a, (![0, 0, 29, 0] : Fin 4 → Nat) a + S128x1x1x1024.size a ≤ S128x1x32x1024.size a
  inb_S128x1x32x1024_S128x1x1x1024_0_0_30_0 : ∀ a, (![0, 0, 30, 0] : Fin 4 → Nat) a + S128x1x1x1024.size a ≤ S128x1x32x1024.size a
  inb_S128x1x32x1024_S128x1x1x1024_0_0_31_0 : ∀ a, (![0, 0, 31, 0] : Fin 4 → Nat) a + S128x1x1x1024.size a ≤ S128x1x32x1024.size a
  hrank0 : 0 < grid0.rank
  k0_off1_inb : ∀ i : grid0.Coords, ∀ (r : Fin 32), ∀ a, (k0_off1 i (BitVec.ofNat 32 r.val)) a + S128x1024.size a ≤ S128x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S128x2048.size a
  hwx0_0 : ∀ i : grid0.Coords, EltTy.bits .f32 = 32 ∨ (Rect.block (s := S128x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1x32x1024.size a ≤ S128x1x1024x1024.size a
  hwx0_1 : ∀ i : grid0.Coords, EltTy.bits .f32 = 32 ∨ (Rect.block (s := S128x1x1024x1024) S128x1x32x1024.size (cc0_transform_1 i) (hinb0_1 i)).WholeWords (EltTy.packing .f32)

variable [Facts₀]

abbrev win0_0 : Pipeline.Window sig grid0 :=
  Pipeline.Window.ofSpec (Memref.whole main_v0) S128x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x1x32x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x1024 : Shape := ⟨2, ![128, 1024]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S_ : Shape := ⟨0, ![]⟩
abbrev S1024x1024x1 : Shape := ⟨3, ![1024, 1024, 1]⟩
abbrev S128x1024x1024 : Shape := ⟨3, ![128, 1024, 1024]⟩
abbrev S128x1x1024x1024 : Shape := ⟨4, ![128, 1, 1024, 1024]⟩

abbrev nBuf : Space → Nat
  | .hbm => 39
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .i32⟩
  | .hbm, ⟨2, _⟩ => ⟨S1x1024, .i32⟩
  | .hbm, ⟨3, _⟩ => ⟨S1024x1, .i32⟩
  | .hbm, ⟨4, _⟩ => ⟨S1024x1024, .i32⟩
  | .hbm, ⟨5, _⟩ => ⟨S1024x1024, .i32⟩
  | .hbm, ⟨6, _⟩ => ⟨S1024x1024, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S_, .i32⟩
  | .hbm, ⟨19, _⟩ => ⟨S1024x1024, .i32⟩
  | .hbm, ⟨20, _⟩ => ⟨S1024x1024, .i1⟩
  | .hbm, ⟨21, _⟩ => ⟨S_, .i32⟩
  | .hbm, ⟨22, _⟩ => ⟨S_, .i1⟩
  | .hbm, ⟨23, _⟩ => ⟨S1024x1024, .i1⟩
  | .hbm, ⟨24, _⟩ => ⟨S1024x1024, .i1⟩
  | .hbm, ⟨25, _⟩ => ⟨S1024x1024, .i1⟩
  | .hbm, ⟨26, _⟩ => ⟨S1024x1024, .i32⟩
  | .hbm, ⟨27, _⟩ => ⟨S1024x1024, .i32⟩
  | .hbm, ⟨28, _⟩ => ⟨S1024x1024, .i32⟩
  | .hbm, ⟨29, _⟩ => ⟨S_, .i32⟩
  | .hbm, ⟨30, _⟩ => ⟨S1024x1024, .i32⟩
  | .hbm, ⟨31, _⟩ => ⟨S1024x1024, .i1⟩
  | .hbm, ⟨32, _⟩ => ⟨S_, .i32⟩
  | .hbm, ⟨33, _⟩ => ⟨S1024x1024, .i32⟩
  | .hbm, ⟨34, _⟩ => ⟨S1024x1024, .i32⟩
  | .hbm, ⟨35, _⟩ => ⟨S1024x1024, .i32⟩
  | .hbm, ⟨36, _⟩ => ⟨S1024x1024x1, .i32⟩
  | .hbm, ⟨37, _⟩ => ⟨S128x1024x1024, .f32⟩
  | .hbm, ⟨38, _⟩ => ⟨S128x1x1024x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_c_0 : Ref sig .tc := ⟨.hbm, 29, rfl⟩
abbrev main_v7 : Ref sig .tc := ⟨.hbm, 30, rfl⟩
abbrev main_v8 : Ref sig .tc := ⟨.hbm, 31, rfl⟩
abbrev main_c_1 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1024_S1024x1_0 : S1024.BroadcastsInDim S1024x1 (![0] : Fin 1 → Fin S1024x1.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  bcast_S128x1024x1024_S128x1x1024x1024_0_2_3 : S128x1024x1024.BroadcastsInDim S128x1x1024x1024 (![0, 2, 3] : Fin 3 → Fin S128x1x1024x1024.rank)
  gather_S128x1024_S1024x1024x1_S128x1024x1024_0_1_n_n_1_2_1281_wf : GatherDims.WF S128x1024 S1024x1024x1 S128x1024x1024 [0] [1] [] [1] [] 2 ![128, 1]

variable [Facts₀]

def gather_S128x1024_S1024x1024x1_S128x1024x1024_0_1_n_n_1_2_1281 : GatherDims S128x1024 S1024x1024x1 S128x1024x1024 where
  offsetDims := [0]
  collapsedSliceDims := [1]
  operandBatchingDims := []
  startIndicesBatchingDims := []
  startIndexMap := [1]
  indexVectorDim := 2
  sliceSizes := ![128, 1]
  wf := gather_S128x1024_S1024x1024x1_S128x1024x1024_0_1_n_n_1_2_1281_wf

class Facts : Prop extends Facts₀ where

variable [Facts]
-- ==== Proof.KernelBlock.lean ====
import proofs.«176913_j81509889343749_1_alg».proof.Proof.Gen.KernelIdeal.Value
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F]

/-- What the body leaves in its output block at grid point `t`, as a function of the doubled array `z` it loads
    from: row `r` of the block is the window of 1024 columns of `z` that starts at column `1024 - 32·t - r`. -/
def blockOf {α : Type} (z : S128x2048.Idx → α) (t : Nat) : S128x1x32x1024.Idx → α :=
  fun y => z (ix2 (n0 := 128) (n1 := 2048) (y 0)
    ⟨(1024 - 32 * t - (y 2).val + (y 3).val) % 2048, Nat.mod_lt _ (by decide)⟩)

/-- The start of the `r`-th load: no wrap in the 32-bit arithmetic, since `32·t + r ≤ 1023`. -/
theorem off_eq (i : grid0.Coords) (r : Fin 32) :
    k0_off1 i (BitVec.ofNat 32 r.val) = ![0, 1024 - 32 * (i 0).val - r.val] := by
  have hi : (i 0).val < 32 := (i 0).isLt
  have hr := r.isLt
  unfold k0_off1
  simp only [Scalar.muli, Scalar.subi, Scalar.indexCast, IntOp.muli, IntOp.subi]
  have : (1024#32 - BitVec.ofNat 32 (i 0).val * 32#32 - BitVec.ofNat 32 r.val).toNat = 1024 - 32 * (i 0).val - r.val := by
    rw [BitVec.toNat_sub, BitVec.toNat_sub, BitVec.toNat_mul, BitVec.toNat_ofNat, BitVec.toNat_ofNat]
    simp only [BitVec.toNat_ofNat]
    omega
  rw [this]

/-- The two re-layings between a load and its store — `[128, 1024]` to itself, then to `[128, 1, 1, 1024]` — read at
    an element: the two unit axes carry nothing. -/
theorem relaid_apply {α : Type} (v : S128x1024.Idx → α) (h1 : S128x1024.ShapeCasts S128x1024)
    (h2 : S128x1024.ShapeCasts S128x1x1x1024) (x : S128x1x1x1024.Idx) :
    shapeCast S128x1x1x1024 (shapeCast S128x1024 v h1) h2 x = v (ix2 (n0 := 128) (n1 := 1024) (x 0) (x 3)) := by
  rw [shapeCast_self]
  refine shapeCast_apply v h2 x _ ?_
  rw [Shape.rowMajor_val_two, Shape.rowMajor_val_four]
  have h1' : (x 1).val = 0 := by have := (x 1).isLt; simp at this; omega
  have h2' : (x 2).val = 0 := by have := (x 2).isLt; simp at this; omega
  show (x 0).val * 1024 + (x 3).val = (((x 0).val * 1 + (x 1).val) * 1 + (x 2).val) * 1024 + (x 3).val
  rw [h1', h2']; omega

/-- The `r`-th store's rectangle is inside the block. -/
theorem row_inb (r : Fin 32) : ∀ a, (![0, 0, r.val, 0] : Fin 4 → Nat) a + S128x1x1x1024.size a ≤ S128x1x32x1024.size a := by
  have hr := r.isLt
  intro a
  match a with
  | ⟨0, _⟩ => show 0 + 128 ≤ 128; omega
  | ⟨1, _⟩ => show 0 + 1 ≤ 1; omega
  | ⟨2, _⟩ => show r.val + 1 ≤ 32; omega
  | ⟨3, _⟩ => show 0 + 1024 ≤ 1024; omega

/-- The `r`-th store of the body: row `r` of the block receives the `r`-th load, re-laid. -/
def pieceAt (i : grid0.Coords) (arg1 : Memref sig .tc .vmem S128x2048 .f32) (harg1 : arg1.IsWhole)
    (x0 : Vec F S128x2048 .f32) (r : Fin 32) : View.Piece (Elt F) S128x1x32x1024 .f32 :=
  ⟨Rect.unit ![0, 0, r.val, 0] S128x1x1x1024.size (row_inb r),
    shapeCast S128x1x1x1024 (shapeCast S128x1024
      (View.readAt (Elt F) arg1.view (Rect.unit (s := S128x2048) (k0_off1 i (BitVec.ofNat 32 r.val)) S128x1024.size (Facts₀.k0_off1_inb i r)).toLoadRect (harg1.unread x0))
      Facts₀.shapeCasts_S128x1024_S128x1024) Facts₀.shapeCasts_S128x1024_S128x1x1x1024⟩

/-- The body's stores are those thirty-two pieces, the last store first. -/
theorem pieces_eq (c : Dev nD) (i : grid0.Coords) (arg1 : Memref sig .tc .vmem S128x2048 .f32) (harg1 : arg1.IsWhole) (arg2 : Memref sig .tc .vmem S128x1x32x1024 .f32) (harg2 : arg2.IsWhole)
    (x0 : Vec F S128x2048 .f32) :
    (kernelRun0_A c i arg1 harg1 arg2 harg2 x0).1 = (List.finRange 32).reverse.map (pieceAt i arg1 harg1 x0) := by
  unfold kernelRun0_A
  dsimp only
  sl_unfold_run_names
  rfl

/-- Each piece is the block function on its rectangle: element `(b, 0, 0, q)` of the `r`-th piece is the doubled
    array at row `b`, column `1024 - 32·t - r + q`. -/
theorem piece_ok (i : grid0.Coords) (arg1 : Memref sig .tc .vmem S128x2048 .f32) (harg1 : arg1.IsWhole)
    (x0 : Vec F S128x2048 .f32) (r : Fin 32) (x : S128x1x1x1024.Idx) :
    (pieceAt i arg1 harg1 x0 r).2 x = blockOf x0 (i 0).val ((pieceAt i arg1 harg1 x0 r).1.emb x) := by
  have hi : (i 0).val < 32 := (i 0).isLt
  have hr := r.isLt
  have hx2 : (x 2).val = 0 := by have := (x 2).isLt; simp at this; omega
  have hx3 : (x 3).val < 1024 := (x 3).isLt
  unfold pieceAt
  dsimp only
  rw [relaid_apply, View.readAt_eq_ld, harg1.read_unread]
  unfold blockOf
  show x0 _ = x0 _
  refine congrArg x0 (funext fun a => Fin.ext ?_)
  match a with
  | ⟨0, _⟩ =>
    show (k0_off1 i (BitVec.ofNat 32 r.val)) 0 + 1 * (x 0).val = 0 + 1 * (x 0).val
    rw [off_eq]; rfl
  | ⟨1, _⟩ =>
    show (k0_off1 i (BitVec.ofNat 32 r.val)) 1 + 1 * (x 3).val = (1024 - 32 * (i 0).val - (r.val + 1 * (x 2).val) + (0 + 1 * (x 3).val)) % 2048
    rw [off_eq, hx2]
    show 1024 - 32 * (i 0).val - r.val + 1 * (x 3).val = _
    omega

/-- THE BLOCK: what the body leaves in its output block at a grid point is `blockOf` of the doubled array. -/
theorem out_block (c : Dev nD) (i : grid0.Coords) (arg1 : Memref sig .tc .vmem S128x2048 .f32) (harg1 : arg1.IsWhole) (arg2 : Memref sig .tc .vmem S128x1x32x1024 .f32) (harg2 : arg2.IsWhole)
    (x0 : Vec F S128x2048 .f32) :
    out0_A_1 c i arg1 harg1 arg2 harg2 x0 = blockOf x0 (i 0).val := by
  unfold out0_A_1
  rw [View.read_writes_junk_eq_canon]
  funext y
  refine View.canon_apply_of_pieces (blockOf x0 (i 0).val) _ ?_ y (cover0_A_1 c i arg1 harg1 arg2 harg2 x0 y)
  rw [pieces_eq]
  intro p hp
  obtain ⟨r, -, rfl⟩ := List.mem_map.mp hp
  exact piece_ok i arg1 harg1 x0 r

end Cert.KernelIdeal.Block

end
-- ==== Proof.WordMod.lean ====
import Idealize.ShloMosaic.PureOps
import Idealize.ShloMosaic.Lib.Affine
import Idealize.ShloMosaic.Lib.ValueIdx

namespace Cert.Circulant

open Idealize.ShloMosaic

/-- The floor-modulus by 1024 of a 32-bit word, computed the way the host computes `a % n` for signed
    integers: the truncated remainder `r` (it has the sign of the dividend), to which the modulus is added
    when `r` is nonzero and its sign differs from the modulus' sign. The modulus itself goes through a
    guard against zero (a zero modulus is replaced by one) that is inert here. -/
def floorMod (d : BitVec 32) : BitVec 32 :=
  let n : BitVec 32 := Scalar.select (IntOp.cmpi .eq 1024#32 0#32) 1#32 1024#32
  let r : BitVec 32 := IntOp.remsi .host d n
  Scalar.select
    (IntOp.andi (IntOp.cmpi .ne (IntOp.cmpi .slt r 0#32) (IntOp.cmpi .slt n 0#32)) (IntOp.cmpi .ne r 0#32))
    (IntOp.addi r n) r

/-- A negative position counted from the end: `v + 1024` when `v < 0`, else `v`. -/
def fromEnd (v : BitVec 32) : BitVec 32 :=
  Scalar.select (IntOp.cmpi .slt v 0#32) (IntOp.addi v 1024#32) v

/-- The column `(j - i) mod 1024` as a natural number below 1024. -/
def shiftCol (i j : Fin 1024) : Fin 1024 := ⟨(j.val + 1024 - i.val) % 1024, Nat.mod_lt _ (by decide)⟩

/-- The difference of two positions below 1024 does not wrap as a signed word. -/
theorem toInt_sub_small (i j : Fin 1024) :
    (BitVec.ofNat 32 j.val - BitVec.ofNat 32 i.val).toInt = (j.val : Int) - (i.val : Int) := by
  have hi := i.isLt
  have hj := j.isLt
  rw [BitVec.toInt_sub, BitVec.toInt_ofNat', BitVec.toInt_ofNat']
  simp only [Int.bmod_def]
  omega

/-- The truncated remainder by 1024 of a word strictly between -1024 and 1024 is the word. -/
theorem srem_small (d : BitVec 32) (h : -1024 < d.toInt ∧ d.toInt < 1024) : d.srem 1024#32 = d := by
  apply BitVec.eq_of_toInt_eq
  rw [BitVec.toInt_srem, show (1024#32 : BitVec 32).toInt = 1024 from by decide]
  by_cases hneg : d.toInt < 0
  · obtain ⟨k, hk⟩ : ∃ k : Int, d.toInt = -k := ⟨-d.toInt, by omega⟩
    rw [hk, Int.neg_tmod, Int.tmod_eq_of_lt (by omega) (by omega)]
  · exact Int.tmod_eq_of_lt (by omega) h.2

/-- The host's floor-modulus of `j - i` for two positions below 1024 is `(j - i) mod 1024`. -/
theorem floorMod_sub (i j : Fin 1024) :
    floorMod (BitVec.ofNat 32 j.val - BitVec.ofNat 32 i.val) = BitVec.ofNat 32 (shiftCol i j).val := by
  have hi := i.isLt
  have hj := j.isLt
  have hd := toInt_sub_small i j
  generalize hdd : BitVec.ofNat 32 j.val - BitVec.ofNat 32 i.val = d at hd
  have hn : Scalar.select (IntOp.cmpi .eq 1024#32 0#32) 1#32 (1024#32 : BitVec 32) = 1024#32 := by decide
  have hr : IntOp.remsi .host d 1024#32 = d := by
    rw [IntOp.remsi_of_pos .host (by decide)]
    exact srem_small d (by omega)
  unfold floorMod
  simp only [hn, hr]
  have hs0 : IntOp.cmpi .slt (1024#32 : BitVec 32) 0#32 = 0#1 := by decide
  rw [hs0]
  apply BitVec.eq_of_toInt_eq
  have hshift : (BitVec.ofNat 32 (shiftCol i j).val).toInt = ((shiftCol i j).val : Int) := by
    have := (shiftCol i j).isLt
    rw [BitVec.toInt_ofNat']; simp only [Int.bmod_def]; omega
  rw [hshift]
  by_cases hlt : j.val < i.val
  · have h1 : IntOp.cmpi .slt d 0#32 = 1#1 := by
      rw [IntOp.cmpi_slt, show (0#32 : BitVec 32).toInt = 0 from by decide]; omega
    have h2 : IntOp.cmpi .ne d 0#32 = 1#1 := by
      rw [IntOp.cmpi_ne]; intro h; rw [h] at hd; simp at hd; omega
    rw [h1, h2, show IntOp.andi (IntOp.cmpi .ne (1#1 : BitVec 1) 0#1) 1#1 = 1#1 from by decide, ValueIdx.select_one]
    unfold IntOp.addi shiftCol
    rw [BitVec.toInt_add, hd, show (1024#32 : BitVec 32).toInt = 1024 from by decide]
    simp only [Int.bmod_def]
    omega
  · have h1 : IntOp.cmpi .slt d 0#32 = 0#1 := by
      have : ¬ IntOp.cmpi .slt d 0#32 = 1#1 := by
        rw [IntOp.cmpi_slt, show (0#32 : BitVec 32).toInt = 0 from by decide]; omega
      exact ValueIdx.eq_zero_of_ne_one this
    rw [h1, show ∀ b : BitVec 1, IntOp.andi (IntOp.cmpi .ne (0#1 : BitVec 1) 0#1) b = 0#1 from by decide, ValueIdx.select_zero]
    rw [hd]
    unfold shiftCol
    simp only
    omega

/-- A position below 1024 is not counted from the end. -/
theorem fromEnd_small (k : Fin 1024) : fromEnd (BitVec.ofNat 32 k.val) = BitVec.ofNat 32 k.val := by
  have hk := k.isLt
  have h1 : IntOp.cmpi .slt (BitVec.ofNat 32 k.val) 0#32 = 0#1 := by
    have : ¬ IntOp.cmpi .slt (BitVec.ofNat 32 k.val) 0#32 = 1#1 := by
      rw [IntOp.cmpi_slt, show (0#32 : BitVec 32).toInt = 0 from by decide, BitVec.toInt_ofNat']
      simp only [Int.bmod_def]; omega
    exact ValueIdx.eq_zero_of_ne_one this
  unfold fromEnd
  rw [h1, ValueIdx.select_zero]

/-- Read as a signed start position and clamped into `[0, 1023]`, a position below 1024 is itself. -/
theorem clamp_small (k : Fin 1024) : min (BitVec.ofNat 32 k.val).toInt.toNat (1024 - 1) = k.val := by
  have hk := k.isLt
  rw [BitVec.toInt_ofNat']
  simp only [Int.bmod_def]
  omega

end Cert.Circulant
-- ==== Proof.Spec.lean ====
import proofs.«176913_j81509889343749_1_alg».proof.Proof.WordMod
import Idealize.ShloMosaic.Lib.ValueIdx

namespace Cert.Circulant

open Idealize.ShloMosaic Idealize.ShloMosaic.ValueIdx

/-- The circulant array of a matrix `x : [128, 1024]`: element `(b, 0, i, j)` is row `b` of `x` at the column
    `(j - i) mod 1024` — row `i` of each `1024 × 1024` slab is row `b` of `x` rotated right by `i` places. Nothing is
    computed on the elements: any element type. -/
def circ {α : Type} (x : (⟨2, ![128, 1024]⟩ : Shape).Idx → α) : (⟨4, ![128, 1, 1024, 1024]⟩ : Shape).Idx → α :=
  fun y => x (ix2 (n0 := 128) (n1 := 1024) (y 0) (shiftCol (y 2) (y 3)))

theorem circ_apply {α : Type} (x : (⟨2, ![128, 1024]⟩ : Shape).Idx → α) (b : Fin 128) (u : Fin 1) (i j : Fin 1024) :
    circ x (ix4 b u i j) = x (ix2 b (shiftCol i j)) := rfl

end Cert.Circulant
-- ==== Proof.KernelValue.lean ====
import proofs.«176913_j81509889343749_1_alg».proof.Proof.KernelBlock
import proofs.«176913_j81509889343749_1_alg».proof.Proof.Spec
import Idealize.ShloMosaic.Lib.StableHlo.Run

noncomputable section

namespace Cert.KernelIdeal.Block

open Cert.KernelIdeal Cert.KernelIdeal.Gen Idealize.ShloMosaic Idealize.ShloMosaic.TcCoe Idealize.SL.Sem
open Idealize.ShloMosaic.Tactic Idealize.ShloMosaic.ValueIdx Idealize.ShloMosaic.StableHlo Cert.Circulant
open Idealize.ShloMosaic.Pipeline (Dat)

variable {F : FTy → Type} [FloatOps F]
variable (m : (ℓ : Loc nD τ sig) → Buf (Elt F) ℓ) (ρ : Dev nD → PrngReg)

/-- A matrix `x : [128, 1024]` written twice side by side: column `k` of the doubled array is column
    `k mod 1024` of `x`. -/
def doubled {α : Type} (x : S128x1024.Idx → α) : S128x2048.Idx → α :=
  fun k => x (ix2 (n0 := 128) (n1 := 1024) (k 0) ⟨(k 1).val % 1024, Nat.mod_lt _ (by decide)⟩)

/-- The concatenation of `x` with itself along the columns is the doubled array. -/
theorem concat_eq {α : Type} (x : S128x1024.Idx → α) (h : Shape.Concatenates [S128x1024, S128x1024] S128x2048 1) :
    concatenate S128x2048 1 [⟨S128x1024, x⟩, ⟨S128x1024, x⟩] h = doubled x := by
  funext k
  have hk1 : (k 1).val < 2048 := (k 1).isLt
  by_cases hk : (k 1).val < 1024
  · refine (concatenate_pair_apply_left (1 : Fin 2) x x h k rfl (ix2 (n0 := 128) (n1 := 1024) (k 0) ⟨(k 1).val, hk⟩)
      (fun b => match b with | ⟨0, _⟩ => rfl | ⟨1, _⟩ => rfl)).trans ?_
    unfold doubled
    refine congrArg x (funext fun a => Fin.ext ?_)
    match a with
    | ⟨0, _⟩ => rfl
    | ⟨1, _⟩ => show (k 1).val = (k 1).val % 1024; omega
  · refine (concatenate_pair_apply_right (1 : Fin 2) x x h k rfl rfl (ix2 (n0 := 128) (n1 := 1024) (k 0) ⟨(k 1).val - 1024, by omega⟩)
      (fun b hb => match b, hb with | ⟨0, _⟩, _ => rfl | ⟨1, _⟩, hb => absurd rfl hb) (by show (k 1).val - 1024 + 1024 = (k 1).val; omega)).trans ?_
    unfold doubled
    refine congrArg x (funext fun a => Fin.ext ?_)
    match a with
    | ⟨0, _⟩ => rfl
    | ⟨1, _⟩ => show (k 1).val - 1024 = (k 1).val % 1024; omega

/-- The array the region stages its input from is the argument, doubled: the one host operation before the region
    is the concatenation. -/
theorem V_doubled (c : Dev nD) :
    (V m c main_v0 : S128x2048.Idx → Elt F .f32) = doubled (m ((c : Thread nD τ).loc main_arg0)) := by
  have e : (V m c main_v0 : S128x2048.Idx → Elt F .f32)
      = concatenate S128x2048 1 [⟨S128x1024, m ((c : Thread nD τ).loc main_arg0)⟩, ⟨S128x1024, m ((c : Thread nD τ).loc main_arg0)⟩]
          Facts₀.concatenates_S128x1024_S128x1024_S128x2048_d1 := by
    dsimp only [Gen.V, Gen.hostOps0]; after_results
  rw [e, concat_eq]

/-- The printed index maps over the grid: the input window is the whole doubled array at every point; the output
    window's block at point `t` is rows `32·t … 32·t + 31` of every slab. -/
theorem idx_facts : ∀ t : Fin cfg0.N, win0_0.index t (0 : Fin 2) = 0 ∧ win0_0.index t (1 : Fin 2) = 0
    ∧ win0_1.index t (0 : Fin 4) = 0 ∧ win0_1.index t (1 : Fin 4) = 0 ∧ win0_1.index t (2 : Fin 4) = t.val
    ∧ win0_1.index t (3 : Fin 4) = 0 ∧ ((grid0.coords t) 0).val = t.val :=
  (by decide +kernel : ∀ t : Fin grid0.N, _)

/-- WHAT POINT `t` WRITES BACK is block `t` of the circulant array of the argument. -/
theorem flushed_eq (c : Dev nD) (t : Fin cfg0.N) :
    (dats m 0 c).flushed 1 t = ((cfg0.win 1).blk t).view.read (Elt F) (circ (m ((c : Thread nD τ).loc main_arg0))) := by
  rw [Cert.KernelIdeal.Value.flushed1_A, out_block]
  obtain ⟨e0, e1, e2, e3, e4, e5, e6⟩ := idx_facts t
  have hN : cfg0.N = 32 := N_0
  have ht : t.val < 32 := by have := t.isLt; omega
  funext j
  have hj2 : (j 2).val < 32 := (j 2).isLt
  have hj3 : (j 3).val < 1024 := (j 3).isLt
  show V m c main_v0 (((cfg0.win 0).blk t).view.emb (ix2 (n0 := 128) (n1 := 2048) (j 0)
      ⟨(1024 - 32 * ((grid0.coords t) 0).val - (j 2).val + (j 3).val) % 2048, Nat.mod_lt _ (by decide)⟩))
    = circ (m ((c : Thread nD τ).loc main_arg0)) (((cfg0.win 1).blk t).view.emb j)
  rw [V_doubled]
  unfold doubled circ
  refine congrArg _ (funext fun a => Fin.ext ?_)
  match a with
  | ⟨0, _⟩ =>
    show win0_0.index t (0 : Fin 2) * 128 + 1 * (j 0).val = win0_1.index t (0 : Fin 4) * 128 + 1 * (j 0).val
    rw [e0, e2]
  | ⟨1, _⟩ =>
    show (win0_0.index t (1 : Fin 2) * 2048 + 1 * ((1024 - 32 * ((grid0.coords t) 0).val - (j 2).val + (j 3).val) % 2048)) % 1024
      = (win0_1.index t (3 : Fin 4) * 1024 + 1 * (j 3).val + 1024 - (win0_1.index t (2 : Fin 4) * 32 + 1 * (j 2).val)) % 1024
    rw [e1, e4, e5, e6]
    omega

/-- An index of the array is in point `t`'s block iff each coordinate is in the block's range on its axis. -/
theorem mem_blk (t : Fin cfg0.N) (i : S128x1x1024x1024.Idx) :
    i ∈ ((cfg0.win 1).blk t).view.set ↔ ∀ a : Fin 4, win0_1.index t a * S128x1x32x1024.size a ≤ (i a).val
      ∧ (i a).val < win0_1.index t a * S128x1x32x1024.size a + S128x1x32x1024.size a := by
  show i ∈ ((View.whole main_v1).slice (win0_1.rect t)).set ↔ _
  rw [View.set_slice_whole, Rect.mem_set_unit]
  exact Iff.rfl

/-- Every index of the result is in some point's block: row `i` of a slab is written at point `i / 32`. -/
theorem cover (i : S128x1x1024x1024.Idx) : ∃ t : Fin cfg0.N, (cfg0.win 1).flush t = true ∧ i ∈ ((cfg0.win 1).blk t).view.set := by
  have hN : cfg0.N = 32 := N_0
  have h0 : (i 0).val < 128 := (i 0).isLt
  have h1 : (i 1).val < 1 := (i 1).isLt
  have h2 : (i 2).val < 1024 := (i 2).isLt
  have h3 : (i 3).val < 1024 := (i 3).isLt
  refine ⟨⟨(i 2).val / 32, by omega⟩, flush0_1 _, ?_⟩
  obtain ⟨-, -, e2, e3, e4, e5, -⟩ := idx_facts ⟨(i 2).val / 32, by omega⟩
  rw [mem_blk]
  intro a
  match a with
  | ⟨0, _⟩ => show win0_1.index _ (0 : Fin 4) * 128 ≤ (i 0).val ∧ (i 0).val < win0_1.index _ (0 : Fin 4) * 128 + 128; rw [e2]; omega
  | ⟨1, _⟩ => show win0_1.index _ (1 : Fin 4) * 1 ≤ (i 1).val ∧ (i 1).val < win0_1.index _ (1 : Fin 4) * 1 + 1; rw [e3]; omega
  | ⟨2, _⟩ => show win0_1.index _ (2 : Fin 4) * 32 ≤ (i 2).val ∧ (i 2).val < win0_1.index _ (2 : Fin 4) * 32 + 32; rw [e4]; show (i 2).val / 32 * 32 ≤ (i 2).val ∧ (i 2).val < (i 2).val / 32 * 32 + 32; omega
  | ⟨3, _⟩ => show win0_1.index _ (3 : Fin 4) * 1024 ≤ (i 3).val ∧ (i 3).val < win0_1.index _ (3 : Fin 4) * 1024 + 1024; rw [e5]; omega

/-- THE ARRAY after the run: the circulant array of the argument. -/
theorem final (c : Dev nD) : (dats m 0 c).arrAt 1 cfg0.N = circ (m ((c : Thread nD τ).loc main_arg0)) :=
  (dats m 0 c).arrAt_eq_of_cover 1 (circ (m ((c : Thread nD τ).loc main_arg0))) (fun t _ => flushed_eq m c t) cover

/-- The kernel's run, read: every weakly fair execution terminates with the result array the circulant array of the
    argument, the argument unchanged. -/
theorem run : θ_run defs (onTc (τ := τ) (main (F := F))) ⟨m, fun _ => 0, ρ⟩ fun r => ∀ c : Dev nD,
      r.2.mem ((c : Thread nD τ).loc main_v1) = circ (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.Block

end
-- ==== Proof.RefRun.lean ====
import proofs.«176913_j81509889343749_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The reference's operations in order, the two outlined functions unfolded at their calls: seven that build the
    table of differences `column - row`, the modulus; the twenty-one of the floor-modulus (its inner `where` one of
    them); four that count a negative position from the end; the broadcast to start indices, the gather of
    columns, and the unit axis put back. -/
abbrev ops : List (HloOp τ sig (Elt F)) :=
  [ nullary main_v0 (iotaInDim S1024 32 0),
    unary main_v0 main_v1 (broadcastInDim S1x1024 ![1] bcast_S1024_S1x1024_1 : (⟨S1024, .i32⟩ : BufTy).Contents (Elt F) → (⟨S1x1024, .i32⟩ : BufTy).Contents (Elt F)),
    unary main_v0 main_v2 (broadcastInDim S1024x1 ![0] bcast_S1024_S1024x1_0 : (⟨S1024, .i32⟩ : BufTy).Contents (Elt F) → (⟨S1024x1, .i32⟩ : BufTy).Contents (Elt F)),
    unary main_v1 main_v3 (broadcastInDim S1024x1024 ![0, 1] bcast_S1x1024_S1024x1024_0_1 : (⟨S1x1024, .i32⟩ : BufTy).Contents (Elt F) → (⟨S1024x1024, .i32⟩ : BufTy).Contents (Elt F)),
    unary main_v2 main_v4 (broadcastInDim S1024x1024 ![0, 1] bcast_S1024x1_S1024x1024_0_1 : (⟨S1024x1, .i32⟩ : BufTy).Contents (Elt F) → (⟨S1024x1024, .i32⟩ : BufTy).Contents (Elt F)),
    binary main_v3 main_v4 main_v5 (subi : (⟨S1024x1024, .i32⟩ : BufTy).Contents (Elt F) → (⟨S1024x1024, .i32⟩ : BufTy).Contents (Elt F) → (⟨S1024x1024, .i32⟩ : BufTy).Contents (Elt F)),
    nullary main_c (constantI S_ 32 1024#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S1024x1024 ![] bcast_S_S1024x1024),
    TRef.binary (.of main_v5) main_call0.v3 main_call0.v4 Host.remsi,
    TRef.nullary main_call0.c_1 (constantI S_ 32 0#32),
    TRef.unary main_call0.c_1 main_call0.v5 (broadcastInDim S1024x1024 ![] bcast_S_S1024x1024),
    TRef.binary main_call0.v4 main_call0.v5 main_call0.v6 (cmpi .ne),
    TRef.nullary main_call0.c_2 (constantI S_ 32 0#32),
    TRef.unary main_call0.c_2 main_call0.v7 (broadcastInDim S1024x1024 ![] bcast_S_S1024x1024),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S1024x1024 ![] bcast_S_S1024x1024),
    TRef.binary main_call0.v8 main_call0.v10 main_call0.v11 (cmpi .ne),
    TRef.binary main_call0.v11 main_call0.v6 main_call0.v12 andi,
    TRef.unary main_call0.call0.v0 main_call0.v13 (broadcastInDim S1024x1024 ![] bcast_S_S1024x1024),
    TRef.binary main_call0.v4 main_call0.v13 main_call0.v14 addi,
    TRef.ternary main_call0.v12 main_call0.v14 main_call0.v4 main_call0.v15 select,
    nullary main_c_0 (constantI S_ 32 0#32),
    unary main_c_0 main_v7 (broadcastInDim S1024x1024 ![] bcast_S_S1024x1024 : (⟨S_, .i32⟩ : BufTy).Contents (Elt F) → (⟨S1024x1024, .i32⟩ : BufTy).Contents (Elt F)),
    binary main_v6 main_v7 main_v8 (cmpi .slt : (⟨S1024x1024, .i32⟩ : BufTy).Contents (Elt F) → (⟨S1024x1024, .i32⟩ : BufTy).Contents (Elt F) → (⟨S1024x1024, .i1⟩ : BufTy).Contents (Elt F)),
    nullary main_c_1 (constantI S_ 32 1024#32),
    unary main_c_1 main_v9 (broadcastInDim S1024x1024 ![] bcast_S_S1024x1024 : (⟨S_, .i32⟩ : BufTy).Contents (Elt F) → (⟨S1024x1024, .i32⟩ : BufTy).Contents (Elt F)),
    binary main_v6 main_v9 main_v10 (addi : (⟨S1024x1024, .i32⟩ : BufTy).Contents (Elt F) → (⟨S1024x1024, .i32⟩ : BufTy).Contents (Elt F) → (⟨S1024x1024, .i32⟩ : BufTy).Contents (Elt F)),
    ternary main_v8 main_v10 main_v6 main_v11 (select : (⟨S1024x1024, .i1⟩ : BufTy).Contents (Elt F) → (⟨S1024x1024, .i32⟩ : BufTy).Contents (Elt F) → (⟨S1024x1024, .i32⟩ : BufTy).Contents (Elt F) → (⟨S1024x1024, .i32⟩ : BufTy).Contents (Elt F)),
    unary main_v11 main_v12 (broadcastInDim S1024x1024x1 ![0, 1] bcast_S1024x1024_S1024x1024x1_0_1 : (⟨S1024x1024, .i32⟩ : BufTy).Contents (Elt F) → (⟨S1024x1024x1, .i32⟩ : BufTy).Contents (Elt F)),
    binary main_arg0 main_v12 main_v13 ((fun x i => Host.gather gather_S128x1024_S1024x1024x1_S128x1024x1024_0_1_n_n_1_2_1281 x i) : (⟨S128x1024, .f32⟩ : BufTy).Contents (Elt F) → (⟨S1024x1024x1, .i32⟩ : BufTy).Contents (Elt F) → (⟨S128x1024x1024, .f32⟩ : BufTy).Contents (Elt F)),
    unary main_v13 main_v14 (broadcastInDim S128x1x1024x1024 ![0, 2, 3] bcast_S128x1024x1024_S128x1x1024x1024_0_2_3 : (⟨S128x1024x1024, .f32⟩ : BufTy).Contents (Elt F) → (⟨S128x1x1024x1024, .f32⟩ : BufTy).Contents (Elt F)) ]

set_option maxRecDepth 2048 in
/-- The program is that straight line: the functions' bodies unfolded at their calls, sequencing reassociated. -/
theorem main_eq (c : Dev nD) : main (F := F) c = seq ops := by
  simp only [main, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub ..⟩

/-- Every weakly fair execution terminates, each buffer ending at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.LibColumnGather.lean ====
import Idealize.ShloMosaic.PureOps
import Idealize.ShloMosaic.Lib.ValueIdx

/-!
# A gather of columns, read at one element

`x[:, idx]` of a matrix `x : [B, N]` at an integer array `idx : [R, C]` is a `stablehlo.gather` with offset_dims `[0]`,
collapsed_slice_dims `[1]`, start_index_map `[1]`, slice_sizes `[B, 1]` and index_vector_dim 2 over the indices
re-laid as `[R, C, 1]`; the result is `[B, R, C]`. Its element `(b, r, c)` is `x` at row `b` and at the column
`idx[r, c, 0]`, read as a signed integer and clamped into `[0, N − 1]`: every start position of a gather is clamped
so that the slice fits. Any sizes, any element type, any width of the index words.
-/

namespace Idealize.ShloMosaic.ColumnGather

open Idealize.ShloMosaic Idealize.ShloMosaic.ValueIdx

variable {α : Type}

/-- The dimension numbers of a column gather for an operand `[B, N]`, start indices `[R, C, 1]` and a result
    `[B, R, C]`; the conditions `wf` are decided on a program's literal shapes. -/
abbrev colDims (B N R C : Nat)
    (wf : GatherDims.WF ⟨2, ![B, N]⟩ ⟨3, ![R, C, 1]⟩ ⟨3, ![B, R, C]⟩ [0] [1] [] [1] [] 2 ![B, 1]) :
    GatherDims ⟨2, ![B, N]⟩ ⟨3, ![R, C, 1]⟩ ⟨3, ![B, R, C]⟩ where
  offsetDims := [0]
  collapsedSliceDims := [1]
  operandBatchingDims := []
  startIndicesBatchingDims := []
  startIndexMap := [1]
  indexVectorDim := 2
  sliceSizes := ![B, 1]
  wf := wf

/-- THE COLUMN GATHER READ AT `(b, r, c)`: row `b` of the operand at the column the start index `idx[r, c, 0]`
    names, read signed and clamped into `[0, N − 1]`. -/
theorem gather_cols_apply {B N R C w : Nat} (hN : 0 < N)
    (wf : GatherDims.WF ⟨2, ![B, N]⟩ ⟨3, ![R, C, 1]⟩ ⟨3, ![B, R, C]⟩ [0] [1] [] [1] [] 2 ![B, 1])
    (x : (⟨2, ![B, N]⟩ : Shape).Idx → α) (idx : IVec ⟨3, ![R, C, 1]⟩ w) (b : Fin B) (r : Fin R) (c : Fin C) :
    Host.gather (colDims B N R C wf) x idx (ix3 b r c)
      = x (ix2 b ⟨min (idx (ix3 r c (⟨0, Nat.one_pos⟩ : Fin 1))).toInt.toNat (N - 1), by omega⟩) := by
  unfold Host.gather
  refine congrArg x (funext fun a => Fin.ext ?_)
  show (colDims B N R C wf).start (ix3 b r c) idx a + (colDims B N R C wf).batchCoord (ix3 b r c) a
      + (colDims B N R C wf).offCoord (ix3 b r c) a = _
  rw [GatherDims.batchCoord_eq_zero _ _ _ List.not_mem_nil, Nat.add_zero]
  match a with
  | ⟨0, _⟩ =>
    -- the row axis: no start position is read for it; the result's leading coordinate is the offset
    have hs : (colDims B N R C wf).start (ix3 b r c) idx (0 : Fin 2) = 0 := by
      unfold GatherDims.start; rw [dif_neg (show (0 : Fin 2) ∉ [(1 : Fin 2)] from by decide)]
    have hmem : (0 : Fin 2) ∈ (colDims B N R C wf).sKept :=
      ((colDims B N R C wf).mem_sKept 0).2 ⟨(show (0 : Fin 2) ∉ [(1 : Fin 2)] from by decide), List.not_mem_nil⟩
    have ho : (colDims B N R C wf).offCoord (ix3 b r c) (0 : Fin 2) = b.val := by
      unfold GatherDims.offCoord; rw [dif_pos hmem]; rfl
    show (colDims B N R C wf).start (ix3 b r c) idx (0 : Fin 2) + (colDims B N R C wf).offCoord (ix3 b r c) (0 : Fin 2) = b.val
    rw [hs, ho, Nat.zero_add]
  | ⟨1, _⟩ =>
    -- the column axis: collapsed, so no offset; the start position is the clamped index word
    have ho : (colDims B N R C wf).offCoord (ix3 b r c) (1 : Fin 2) = 0 :=
      GatherDims.offCoord_eq_zero _ _ _ (fun h => (((colDims B N R C wf).mem_sKept 1).1 h).1 (List.mem_singleton.mpr rfl))
    show (colDims B N R C wf).start (ix3 b r c) idx (1 : Fin 2) + (colDims B N R C wf).offCoord (ix3 b r c) (1 : Fin 2)
      = min (idx (ix3 r c (⟨0, Nat.one_pos⟩ : Fin 1))).toInt.toNat (N - 1)
    rw [ho, Nat.add_zero]
    unfold GatherDims.start
    rw [dif_pos (show (1 : Fin 2) ∈ (colDims B N R C wf).startIndexMap from List.mem_singleton.mpr rfl)]
    have hsi : (colDims B N R C wf).siIdx (ix3 b r c) ⟨List.idxOf (1 : Fin 2) (colDims B N R C wf).startIndexMap,
        List.idxOf_lt_length_iff.2 (List.mem_singleton.mpr rfl)⟩ = ix3 r c (⟨0, Nat.one_pos⟩ : Fin 1) := by
      funext d; refine Fin.ext ?_
      match d with
      | ⟨0, _⟩ => rfl
      | ⟨1, _⟩ => rfl
      | ⟨2, _⟩ => rfl
    rw [hsi]
    rfl

end Idealize.ShloMosaic.ColumnGather
-- ==== Proof.RefValue.lean ====
import proofs.«176913_j81509889343749_1_alg».proof.Proof.RefRun
import proofs.«176913_j81509889343749_1_alg».proof.Proof.Spec
import proofs.«176913_j81509889343749_1_alg».proof.Proof.LibColumnGather
import Idealize.ShloMosaic.Lib.Pipeline.Value

noncomputable section

namespace Cert.ReferenceIdeal.HandRun

open Cert.ReferenceIdeal Cert.ReferenceIdeal.Gen Idealize.ShloMosaic Idealize.ShloMosaic.TcCoe Idealize.SL.Sem Idealize.ShloMosaic.StableHlo
open Idealize.ShloMosaic.ValueIdx Cert.Circulant

variable {F : FTy → Type} [FloatOps F]

/-- The table of start positions the reference gathers at, as the operations compose it: entry `(i, j, 0)` is the
    floor-modulus by 1024 of `j - i`, then counted from the end if negative. -/
def startTable : IVec S1024x1024x1 32 :=
  let v0 : IVec S1024 32 := iotaInDim S1024 32 0
  let v1 : IVec S1x1024 32 := broadcastInDim S1x1024 ![1] bcast_S1024_S1x1024_1 v0
  let v2 : IVec S1024x1 32 := broadcastInDim S1024x1 ![0] bcast_S1024_S1024x1_0 v0
  let v3 : IVec S1024x1024 32 := broadcastInDim S1024x1024 ![0, 1] bcast_S1x1024_S1024x1024_0_1 v1
  let v4 : IVec S1024x1024 32 := broadcastInDim S1024x1024 ![0, 1] bcast_S1024x1_S1024x1024_0_1 v2
  let v5 : IVec S1024x1024 32 := subi v3 v4
  let n0 : IVec S_ 32 := id (constantI S_ 32 1024#32)
  let zero : IVec S_ 32 := constantI S_ 32 0#32
  let n : IVec S_ 32 := select (cmpi .eq n0 zero) (constantI S_ 32 1#32) n0
  let nb : IVec S1024x1024 32 := broadcastInDim S1024x1024 ![] bcast_S_S1024x1024 n
  let r : IVec S1024x1024 32 := Host.remsi v5 nb
  let zb : IVec S1024x1024 32 := broadcastInDim S1024x1024 ![] bcast_S_S1024x1024 zero
  let rne : IVec S1024x1024 1 := cmpi .ne r zb
  let rneg : IVec S1024x1024 1 := cmpi .slt r zb
  let nnegb : IVec S1024x1024 1 := broadcastInDim S1024x1024 ![] bcast_S_S1024x1024 (cmpi .slt n zero)
  let fix : IVec S1024x1024 1 := andi (cmpi .ne rneg nnegb) rne
  let fm : IVec S1024x1024 32 := select fix (addi r nb) r
  let kb : IVec S1024x1024 32 := broadcastInDim S1024x1024 ![] bcast_S_S1024x1024 (constantI S_ 32 1024#32)
  let pos : IVec S1024x1024 32 := select (cmpi .slt fm zb) (addi fm kb) fm
  broadcastInDim S1024x1024x1 ![0, 1] bcast_S1024x1024_S1024x1024x1_0_1 pos

/-- The reference's result as one term of its argument: the columns gathered at the table, the unit axis put back. -/
def refTerm (x : (⟨S128x1024, .f32⟩ : BufTy).Contents (Elt F)) : (⟨S128x1x1024x1024, .f32⟩ : BufTy).Contents (Elt F) :=
  broadcastInDim S128x1x1024x1024 ![0, 2, 3] bcast_S128x1024x1024_S128x1x1024x1024_0_2_3
    (Host.gather gather_S128x1024_S1024x1024x1_S128x1024x1024_0_1_n_n_1_2_1281 x startTable)

/-- The fold of the operations at the result buffer is that term (each operation's result decides whether the buffer
    read is the one it writes: definitional). -/
theorem result_eq (V : Valuation τ sig (Elt F)) :
    after ops V (main_v14 : DevRef τ sig) = refTerm (V (main_arg0 : DevRef τ sig)) := by
  after_results_simp
  rfl

theorem arg0_eq (V : Valuation τ sig (Elt F)) :
    after ops V (main_arg0 : DevRef τ sig) = V (main_arg0 : DevRef τ sig) := by
  after_results_simp

/-- Entry `(i, j, 0)` of the table is the column `(j - i) mod 1024`. -/
theorem startTable_apply (i j : Fin 1024) (u : Fin 1) :
    startTable (ix3 i j u) = BitVec.ofNat 32 (shiftCol i j).val := by
  have h : startTable (ix3 i j u) = fromEnd (floorMod (BitVec.ofNat 32 j.val - BitVec.ofNat 32 i.val)) := rfl
  rw [h, floorMod_sub, fromEnd_small]

/-- The reference's result is the circulant array of its argument. -/
theorem refTerm_eq_circ (x : (⟨S128x1024, .f32⟩ : BufTy).Contents (Elt F)) : refTerm x = circ x := by
  funext y
  obtain ⟨b, u, i, j, rfl⟩ : ∃ (b : Fin 128) (u : Fin 1) (i j : Fin 1024), y = ix4 b u i j :=
    ⟨y 0, y 1, y 2, y 3, eq_ix4 y⟩
  unfold refTerm
  rw [broadcastInDim_apply _ _ _ (ix4 b u i j) (ix3 b i j)
    (fun a => match a with | ⟨0, _⟩ => rfl | ⟨1, _⟩ => rfl | ⟨2, _⟩ => rfl)]
  rw [show gather_S128x1024_S1024x1024x1_S128x1024x1024_0_1_n_n_1_2_1281
      = ColumnGather.colDims 128 1024 1024 1024 Gen.gather_S128x1024_S1024x1024x1_S128x1024x1024_0_1_n_n_1_2_1281_wf from rfl]
  rw [ColumnGather.gather_cols_apply (by decide), circ_apply]
  refine congrArg x (funext fun a => Fin.ext ?_)
  match a with
  | ⟨0, _⟩ => rfl
  | ⟨1, _⟩ =>
    show min (startTable (ix3 i j (⟨0, Nat.one_pos⟩ : Fin 1))).toInt.toNat (1024 - 1) = (shiftCol i j).val
    rw [startTable_apply]
    exact clamp_small _

/-- Every weakly fair execution of the reference terminates with its result the circulant array of its argument,
    the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = circ (m ((c.tc : Thread nD τ).loc main_arg0))
      ∧ r.2.mem ((c.tc : Thread nD τ).loc main_arg0) = m ((c.tc : Thread nD τ).loc main_arg0) :=
  (θ_run defs _ _).mono (fun _ h c => ⟨(h c main_v14).trans ((result_eq _).trans (refTerm_eq_circ _)),
      (h c main_arg0).trans (arg0_eq _)⟩)
    (run_fold m ρ)

end Cert.ReferenceIdeal.HandRun

end
-- ==== Proof.lean ====
/-
  The kernel fills a `[128, 1, 1024, 1024]` array with rotations of the rows of `x : [128, 1024]`: element
  `(b, 0, i, j)` is `x[b, (j - i) mod 1024]` — row `i` of slab `b` is row `b` of `x` rotated right by `i`. Nothing is
  computed on the elements; both programs only move them, so the two results agree on every extended real and the
  precondition is never opened.

  The kernel writes `x` twice side by side (`z = [x | x]`, so `z[b, k] = x[b, k mod 1024]`) and, at grid point `t`,
  stores as row `r` of its block (rows `32·t … 32·t + 31` of every slab) the window of 1024 columns of `z` that starts
  at column `1024 - 32·t - r`: element `q` of that row is `z[b, 1024 - (32·t + r) + q] = x[b, (q - (32·t + r)) mod 1024]`
  (Proof/KernelBlock.lean: the thirty-two stores as one function of the doubled array; Proof/KernelValue.lean: the
  doubled array, the block of the circulant array each point writes back, the blocks cover the result).

  The reference builds the table `(j - i) mod 1024` with integer operations — a truncated remainder corrected to a
  floor-modulus, then a count-from-the-end for negative positions, inert here — and gathers the columns of `x` at it
  (Proof/WordMod.lean: the 32-bit arithmetic for positions below 1024; Proof/LibColumnGather.lean: a gather of
  columns read at one element; Proof/RefRun.lean: the reference as a straight line of operations and its run;
  Proof/RefValue.lean: the composed term is the circulant array).

  Both runs end at the same function `Cert.Circulant.circ` (Proof/Spec.lean) of arguments that agree.
-/
import proofs.«176913_j81509889343749_1_alg».proof.Defs
import proofs.«176913_j81509889343749_1_alg».proof.Proof.Gen.Kernel
import proofs.«176913_j81509889343749_1_alg».proof.Proof.Gen.Kernel.Frame
import proofs.«176913_j81509889343749_1_alg».proof.Proof.Gen.KernelIdeal
import proofs.«176913_j81509889343749_1_alg».proof.Proof.Gen.KernelIdeal.Frame
import proofs.«176913_j81509889343749_1_alg».proof.Proof.Gen.ReferenceIdeal
import proofs.«176913_j81509889343749_1_alg».proof.Proof.Gen.Pre_finite_inputs
import proofs.«176913_j81509889343749_1_alg».proof.Proof.KernelValue
import proofs.«176913_j81509889343749_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- The ideal pass rewrote nothing. -/
theorem preserves : Cert.preserves_Kernel_KernelIdeal := trivial

/-- Both programs end with the circulant array of their argument, and the arguments agree. -/
theorem algebraic : Cert.algebraic_KernelIdeal_ReferenceIdeal := by
  intro m ρ m' ρ' _ hagree
  refine ⟨fun c => Cert.Circulant.circ (m ((c.tc : Thread Cert.KernelIdeal.nD Cert.KernelIdeal.τ).loc Cert.KernelIdeal.main_arg0)),
    Cert.KernelIdeal.Block.run (F := Ideal) m ρ, ?_⟩
  refine (θ_run Cert.ReferenceIdeal.defs _ _).mono (fun _ h c => ⟨(h c).1.trans ?_, (h c).2⟩)
    (Cert.ReferenceIdeal.HandRun.run (F := Ideal) m' ρ')
  rw [hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
